-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x15x3 : Shape := ⟨3, ![1000000, 15, 3]⟩
abbrev S_ : Shape := ⟨0, ![]⟩

class Facts : Prop where
  bcast_S_S1000000x15x3 : S_.BroadcastsInDim S1000000x15x3 (![] : Fin 0 → Fin S1000000x15x3.rank)
  reducesTo_S1000000x15x3_S_d0_1_2 : S1000000x15x3.ReducesTo [0, 1, 2] S_
  h_S_ : 0 < S_.numel

variable [Facts]

def fn {F : FTy → Type} [FloatOps F] (main_arg0 : FVec F S1000000x15x3 .f32) : IVec S_ 1 :=
  let main_v0 : FVec F S1000000x15x3 .f32 := Host.absf main_arg0
  let main_cst : FVec F S_ .f32 := constant S_ .f32 0x7F800000#32
  let main_v1 : FVec F S1000000x15x3 .f32 := broadcastInDim S1000000x15x3 ![] bcast_S_S1000000x15x3 main_cst
  let main_v2 : IVec S1000000x15x3 1 := cmpf .olt main_v0 main_v1
  let main_c : IVec S_ 1 := constantI S_ 1 1#1
  let main_v3 : IVec S_ 1 := (fun x v => Host.reduce IntOp.andi x v reducesTo_S1000000x15x3_S_d0_1_2 h_S_) main_v2 main_c
  main_v3
-- ==== Kernel.lean ====
abbrev S1000000x15x3 : Shape := ⟨3, ![1000000, 15, 3]⟩
abbrev S1000000x45 : Shape := ⟨2, ![1000000, 45]⟩
abbrev S1000000x15 : Shape := ⟨2, ![1000000, 15]⟩
abbrev S8000x45 : Shape := ⟨2, ![8000, 45]⟩
abbrev S8000x15 : Shape := ⟨2, ![8000, 15]⟩
abbrev S8000x3 : Shape := ⟨2, ![8000, 3]⟩
abbrev S8000 : Shape := ⟨1, ![8000]⟩
abbrev S8000x1 : Shape := ⟨2, ![8000, 1]⟩
abbrev S1000000x15x1 : Shape := ⟨3, ![1000000, 15, 1]⟩

abbrev nBuf : Space → Nat
  | .hbm => 4
  | .vmem => 4
  | .smem => 0
  | _ => 0

abbrev bufTy : (tb : Table) → Fin (tcTables nBuf tb) → BufTy
  | .hbm, ⟨0, _⟩ => ⟨S1000000x15x3, .f32⟩
  | .hbm, ⟨1, _⟩ => ⟨S1000000x45, .f32⟩
  | .hbm, ⟨2, _⟩ => ⟨S1000000x15, .f32⟩
  | .hbm, ⟨3, _⟩ => ⟨S1000000x15x1, .f32⟩
  | .local _ .vmem, ⟨0, _⟩ => ⟨S8000x45, .f32⟩
  | .local _ .vmem, ⟨1, _⟩ => ⟨S8000x45, .f32⟩
  | .local _ .vmem, ⟨2, _⟩ => ⟨S8000x15, .f32⟩
  | .local _ .vmem, ⟨3, _⟩ => ⟨S8000x15, .f32⟩
  | _, _ => ⟨S1000000x15x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x45 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x15 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S1000000x15x3_S1000000x45 : S1000000x15x3.ShapeCasts S1000000x45
  inb_S8000x45_S8000x45_0_0 : ∀ a, (![0, 0] : Fin 2 → Nat) a + S8000x45.size a ≤ S8000x45.size a
  h_S8000x45 : 0 < S8000x45.numel
  shapeCasts_S8000x45_S8000x45 : S8000x45.ShapeCasts S8000x45
  slices_S8000x45_o0_0_S8000x3 : S8000x45.Slices ![0, 0] S8000x3
  slices_S8000x45_o0_3_S8000x3 : S8000x45.Slices ![0, 3] S8000x3
  slices_S8000x45_o0_9_S8000x3 : S8000x45.Slices ![0, 9] S8000x3
  slices_S8000x45_o0_12_S8000x3 : S8000x45.Slices ![0, 12] S8000x3
  slices_S8000x45_o0_15_S8000x3 : S8000x45.Slices ![0, 15] S8000x3
  slices_S8000x45_o0_18_S8000x3 : S8000x45.Slices ![0, 18] S8000x3
  slices_S8000x45_o0_6_S8000x3 : S8000x45.Slices ![0, 6] S8000x3
  slices_S8000x45_o0_27_S8000x3 : S8000x45.Slices ![0, 27] S8000x3
  slices_S8000x45_o0_30_S8000x3 : S8000x45.Slices ![0, 30] S8000x3
  slices_S8000x45_o0_33_S8000x3 : S8000x45.Slices ![0, 33] S8000x3
  slices_S8000x45_o0_36_S8000x3 : S8000x45.Slices ![0, 36] S8000x3
  concatenates_S8000x3_S8000x3_S8000x3_S8000x3_S8000x3_S8000x3_S8000x3_S8000x3_S8000x3_S8000x3_S8000x3_S8000x3_S8000x3_S8000x3_S8000x3_S8000x45_d1 : Shape.Concatenates [S8000x3, S8000x3, S8000x3, S8000x3, S8000x3, S8000x3, S8000x3, S8000x3, S8000x3, S8000x3, S8000x3, S8000x3, S8000x3, S8000x3, S8000x3] S8000x45 1
  reduces_S8000x3_S8000 : S8000x3.Reduces [1] S8000
  shapeCasts_S8000_S8000x1 : S8000.ShapeCasts S8000x1
  slices_S8000x45_o0_21_S8000x3 : S8000x45.Slices ![0, 21] S8000x3
  slices_S8000x45_o0_24_S8000x3 : S8000x45.Slices ![0, 24] S8000x3
  slices_S8000x45_o0_39_S8000x3 : S8000x45.Slices ![0, 39] S8000x3
  slices_S8000x45_o0_42_S8000x3 : S8000x45.Slices ![0, 42] S8000x3
  concatenates_S8000x1_S8000x1_S8000x1_S8000x1_S8000x1_S8000x1_S8000x1_S8000x1_S8000x1_S8000x1_S8000x1_S8000x1_S8000x1_S8000x1_S8000x1_S8000x15_d1 : Shape.Concatenates [S8000x1, S8000x1, S8000x1, S8000x1, S8000x1, S8000x1, S8000x1, S8000x1, S8000x1, S8000x1, S8000x1, S8000x1, S8000x1, S8000x1, S8000x1] S8000x15 1
  inb_S8000x15_S8000x15_0_0 : ∀ a, (![0, 0] : Fin 2 → Nat) a + S8000x15.size a ≤ S8000x15.size a
  h_S8000x15 : 0 < S8000x15.numel
  shapeCasts_S1000000x15_S1000000x15x1 : S1000000x15.ShapeCasts S1000000x15x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x45.size a ≤ S1000000x45.size a
  hwx0_0 : ∀ i : grid0.Coords, EltTy.bits .f32 = 32 ∨ (Rect.block (s := S1000000x45) S8000x45.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x15.size a ≤ S1000000x15.size a
  hwx0_1 : ∀ i : grid0.Coords, EltTy.bits .f32 = 32 ∨ (Rect.block (s := S1000000x15) S8000x15.size (cc0_transform_1 i) (hinb0_1 i)).WholeWords (EltTy.packing .f32)

variable [Facts₀]

abbrev win0_0 : Pipeline.Window sig grid0 :=
  Pipeline.Window.ofSpec (Memref.whole main_v0) S8000x45.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x15.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1000000x15x3 : Shape := ⟨3, ![1000000, 15, 3]⟩
abbrev S15 : Shape := ⟨1, ![15]⟩
abbrev S_ : Shape := ⟨0, ![]⟩
abbrev S15x1 : Shape := ⟨2, ![15, 1]⟩
abbrev S1000000x15 : Shape := ⟨2, ![1000000, 15]⟩
abbrev S1000000x15x1 : Shape := ⟨3, ![1000000, 15, 1]⟩

abbrev nBuf : Space → Nat
  | .hbm => 17
  | .vmem => 0
  | .smem => 0
  | _ => 0

abbrev bufTy : (tb : Table) → Fin (tcTables nBuf tb) → BufTy
  | .hbm, ⟨0, _⟩ => ⟨S1000000x15x3, .f32⟩
  | .hbm, ⟨1, _⟩ => ⟨S15, .i32⟩
  | .hbm, ⟨2, _⟩ => ⟨S_, .i32⟩
  | .hbm, ⟨3, _⟩ => ⟨S15, .i32⟩
  | .hbm, ⟨4, _⟩ => ⟨S15, .i1⟩
  | .hbm, ⟨5, _⟩ => ⟨S_, .i32⟩
  | .hbm, ⟨6, _⟩ => ⟨S15, .i32⟩
  | .hbm, ⟨7, _⟩ => ⟨S15, .i32⟩
  | .hbm, ⟨8, _⟩ => ⟨S15, .i32⟩
  | .hbm, ⟨9, _⟩ => ⟨S15x1, .i32⟩
  | .hbm, ⟨10, _⟩ => ⟨S1000000x15x3, .f32⟩
  | .hbm, ⟨11, _⟩ => ⟨S1000000x15x3, .f32⟩
  | .hbm, ⟨12, _⟩ => ⟨S1000000x15x3, .f32⟩
  | .hbm, ⟨13, _⟩ => ⟨S_, .f32⟩
  | .hbm, ⟨14, _⟩ => ⟨S1000000x15, .f32⟩
  | .hbm, ⟨15, _⟩ => ⟨S1000000x15x1, .f32⟩
  | .hbm, ⟨16, _⟩ => ⟨S1000000x15x1, .f32⟩
  | _, _ => ⟨S1000000x15x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S15 : S_.BroadcastsInDim S15 (![] : Fin 0 → Fin S15.rank)
  bcast_S15_S15x1_0 : S15.BroadcastsInDim S15x1 (![0] : Fin 1 → Fin S15x1.rank)
  reducesTo_S1000000x15x3_S1000000x15_d2 : S1000000x15x3.ReducesTo [2] S1000000x15
  h_S_ : 0 < S_.numel
  bcast_S1000000x15_S1000000x15x1_0_1 : S1000000x15.BroadcastsInDim S1000000x15x1 (![0, 1] : Fin 2 → Fin S1000000x15x1.rank)
  gather_S1000000x15x3_S15x1_S1000000x15x3_02_1_n_n_1_1_100000013_wf : GatherDims.WF S1000000x15x3 S15x1 S1000000x15x3 [0, 2] [1] [] [1] [] 1 ![1000000, 1, 3]

variable [Facts₀]

def gather_S1000000x15x3_S15x1_S1000000x15x3_02_1_n_n_1_1_100000013 : GatherDims S1000000x15x3 S15x1 S1000000x15x3 where
  offsetDims := [0, 2]
  collapsedSliceDims := [1]
  operandBatchingDims := []
  startIndicesBatchingDims := []
  startIndexMap := [1]
  indexVectorDim := 1
  sliceSizes := ![1000000, 1, 3]
  wf := gather_S1000000x15x3_S15x1_S1000000x15x3_02_1_n_n_1_1_100000013_wf

class Facts : Prop extends Facts₀ where

variable [Facts]
-- ==== Proof.RefRun.lean ====
/-
  The reference program's run, read back: its seventeen host operations as a list, and the fact that every weakly
  fair execution ends with the result buffer at the operations' composed term of the argument array — the
  limb-length function `limbTerm`: gather the connected keypoint along the keypoint axis, subtract, square, sum
  over the three coordinates, take the square root.
-/
import proofs.«150271_j80831284510869_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The table of connected keypoints as the program holds it: fifteen 32-bit words. -/
def limbWords : IVec S15 32 := fun i => lit0 (S15.rowMajor i)

/-- The start indices the gather reads: a negative word is wrapped by the axis length 15 (none is), then the
    table is laid out as a column. -/
def startIdx : IVec S15x1 32 :=
  broadcastInDim S15x1 ![0] bcast_S15_S15x1_0
    (select (cmpi .slt limbWords (broadcastInDim S15 ![] bcast_S_S15 (constantI S_ 32 0#32)))
      (addi limbWords (broadcastInDim S15 ![] bcast_S_S15 (constantI S_ 32 15#32))) limbWords)

/-- The difference of each keypoint and its connected keypoint. -/
def limbDiff (x : FVec F S1000000x15x3 .f32) : FVec F S1000000x15x3 .f32 :=
  subf x (Host.gather gather_S1000000x15x3_S15x1_S1000000x15x3_02_1_n_n_1_1_100000013 x startIdx)

/-- The reference's result as a function of its argument: the Euclidean length of each limb. -/
def limbTerm (x : FVec F S1000000x15x3 .f32) : FVec F S1000000x15x1 .f32 :=
  Host.sqrt (broadcastInDim S1000000x15x1 ![0, 1] bcast_S1000000x15_S1000000x15x1_0_1
    (Host.reduceAdd (mulf (limbDiff x) (limbDiff x)) (constant S_ .f32 0x00000000#32) reducesTo_S1000000x15x3_S1000000x15_d2 h_S_))

/-- @main's 17 operations, in order. -/
abbrev ops : List (HloOp τ sig (Elt F)) :=
  [ nullary main_c (fun i => lit0 (S15.rowMajor i)),
    nullary main_c_0 (constantI S_ 32 0#32),
    unary main_c_0 main_v0 (broadcastInDim S15 ![] bcast_S_S15 : (⟨S_, .i32⟩ : BufTy).Contents (Elt F) → (⟨S15, .i32⟩ : BufTy).Contents (Elt F)),
    binary main_c main_v0 main_v1 (cmpi .slt : (⟨S15, .i32⟩ : BufTy).Contents (Elt F) → (⟨S15, .i32⟩ : BufTy).Contents (Elt F) → (⟨S15, .i1⟩ : BufTy).Contents (Elt F)),
    nullary main_c_1 (constantI S_ 32 15#32),
    unary main_c_1 main_v2 (broadcastInDim S15 ![] bcast_S_S15 : (⟨S_, .i32⟩ : BufTy).Contents (Elt F) → (⟨S15, .i32⟩ : BufTy).Contents (Elt F)),
    binary main_c main_v2 main_v3 (addi : (⟨S15, .i32⟩ : BufTy).Contents (Elt F) → (⟨S15, .i32⟩ : BufTy).Contents (Elt F) → (⟨S15, .i32⟩ : BufTy).Contents (Elt F)),
    ternary main_v1 main_v3 main_c main_v4 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v4 main_v5 (broadcastInDim S15x1 ![0] bcast_S15_S15x1_0 : (⟨S15, .i32⟩ : BufTy).Contents (Elt F) → (⟨S15x1, .i32⟩ : BufTy).Contents (Elt F)),
    binary main_arg0 main_v5 main_v6 ((fun x i => Host.gather gather_S1000000x15x3_S15x1_S1000000x15x3_02_1_n_n_1_1_100000013 x i) : (⟨S1000000x15x3, .f32⟩ : BufTy).Contents (Elt F) → (⟨S15x1, .i32⟩ : BufTy).Contents (Elt F) → (⟨S1000000x15x3, .f32⟩ : BufTy).Contents (Elt F)),
    binary main_arg0 main_v6 main_v7 (subf : (⟨S1000000x15x3, .f32⟩ : BufTy).Contents (Elt F) → (⟨S1000000x15x3, .f32⟩ : BufTy).Contents (Elt F) → (⟨S1000000x15x3, .f32⟩ : BufTy).Contents (Elt F)),
    binary main_v7 main_v7 main_v8 (mulf : (⟨S1000000x15x3, .f32⟩ : BufTy).Contents (Elt F) → (⟨S1000000x15x3, .f32⟩ : BufTy).Contents (Elt F) → (⟨S1000000x15x3, .f32⟩ : BufTy).Contents (Elt F)),
    nullary main_cst (constant S_ .f32 0x00000000#32),
    binary main_v8 main_cst main_v9 ((fun x v => Host.reduceAdd x v reducesTo_S1000000x15x3_S1000000x15_d2 h_S_) : (⟨S1000000x15x3, .f32⟩ : BufTy).Contents (Elt F) → (⟨S_, .f32⟩ : BufTy).Contents (Elt F) → (⟨S1000000x15, .f32⟩ : BufTy).Contents (Elt F)),
    unary main_v9 main_v10 (broadcastInDim S1000000x15x1 ![0, 1] bcast_S1000000x15_S1000000x15x1_0_1 : (⟨S1000000x15, .f32⟩ : BufTy).Contents (Elt F) → (⟨S1000000x15x1, .f32⟩ : BufTy).Contents (Elt F)),
    unary main_v10 main_v11 (Host.sqrt : (⟨S1000000x15x1, .f32⟩ : BufTy).Contents (Elt F) → (⟨S1000000x15x1, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    nullary_bufs_sub .., binary_bufs_sub .., unary_bufs_sub .., unary_bufs_sub ..⟩

/-- On every device, from any memory with zero counters: every weakly fair execution of the reference terminates
    with its result at `limbTerm` of the argument, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = limbTerm (m ((c.tc : Thread nD τ).loc main_arg0))
      ∧ r.2.mem ((c.tc : Thread nD τ).loc main_arg0) = m ((c.tc : Thread nD τ).loc main_arg0) :=
  (θ_run defs _ _).mono (fun _ h c => ⟨(h c main_v11).trans (by after_results; rfl),
      (h c main_arg0).trans (by after_results)⟩)
    (run_seq scopedRefs_eq scopedSems_eq defs main (fun _ => ops) main_eq (fun _ => ops_sub) m ρ)

end Cert.ReferenceIdeal.RefRun

end
-- ==== Proof.Spec.lean ====
/-
  The limb-length function, index by index, on extended reals: for a batch row `b` and a keypoint `k`, the
  Euclidean distance between keypoint `k` and its connected keypoint `parent k`: the square root of the sum over
  the three coordinates of the squared difference. Both programs compute this function of the argument array.
-/
import Idealize.ShloMosaic.PureOps.Ideal
import Idealize.ShloMosaic.Lib.ValueIdx

noncomputable section

open scoped BigOperators

namespace Cert.Limb

open Idealize.ShloMosaic Idealize.ShloMosaic.ValueIdx

/-- The skeleton's edges: keypoint `k` is connected to keypoint `parent k` (keypoint 0 to itself). -/
def parent : Fin 15 → Fin 15 := ![0, 0, 1, 1, 1, 3, 4, 5, 6, 2, 2, 9, 10, 11, 12]

/-- The squared difference of coordinate `d` of keypoint `k` and of its connected keypoint, in batch row `b`. -/
def sqDiff (x : (⟨3, ![1000000, 15, 3]⟩ : Shape).Idx → EReal) (b : Fin 1000000) (k : Fin 15) (d : Fin 3) : EReal :=
  (x (ix3 b k d) - x (ix3 b (parent k) d)) * (x (ix3 b k d) - x (ix3 b (parent k) d))

/-- The length of limb `k` in batch row `b`. -/
def lenAt (x : (⟨3, ![1000000, 15, 3]⟩ : Shape).Idx → EReal) (b : Fin 1000000) (k : Fin 15) : EReal :=
  Ideal.sqrt (∑ d : Fin 3, sqDiff x b k d)

/-- The whole result array [1000000, 15, 1]: entry (b, k, 0) is the length of limb `k` in row `b`. -/
def limbLen (x : (⟨3, ![1000000, 15, 3]⟩ : Shape).Idx → EReal) : (⟨3, ![1000000, 15, 1]⟩ : Shape).Idx → EReal :=
  fun i => lenAt x ⟨(i 0).val, (i 0).isLt⟩ ⟨(i 1).val, (i 1).isLt⟩

theorem limbLen_apply (x : (⟨3, ![1000000, 15, 3]⟩ : Shape).Idx → EReal) (b : Fin 1000000) (k : Fin 15) (z : Fin 1) :
    limbLen x (ix3 b k z) = lenAt x b k := rfl

end Cert.Limb

end
-- ==== Proof.RefValue.lean ====
/-
  The reference's composed term is the limb-length function: read at an index (b, k, 0), the square root of
  zero plus the sum over the three coordinates of the squared difference between keypoint `k` and the keypoint
  the gather fetches for it, which is `parent k` — the table's words are small non-negative integers, so
  wrapping and clamping leave them as they are.
-/
import proofs.«150271_j80831284510869_2_alg».proof.Proof.RefRun
import proofs.«150271_j80831284510869_2_alg».proof.Proof.Spec
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx Cert.Limb

/-- The start index the gather reads for keypoint `k`, signed and clamped into the keypoint axis, is `parent k`. -/
theorem start_word : ∀ k : Fin 15, min (startIdx (ix2 k (0 : Fin 1))).toInt.toNat 14 = (parent k).val := by
  decide

/-- The gather read at (b, k, d): the argument at (b, parent k, d). -/
theorem gather_apply (x : FVec Ideal S1000000x15x3 .f32) (b : Fin 1000000) (k : Fin 15) (d : Fin 3) :
    Host.gather gather_S1000000x15x3_S15x1_S1000000x15x3_02_1_n_n_1_1_100000013 x startIdx (ix3 b k d) = x (ix3 b (parent k) d) := by
  unfold Host.gather
  refine congrArg x (funext fun a => Fin.ext ?_)
  match a with
  | ⟨0, _⟩ => show 0 + 0 + b.val = b.val; omega
  | ⟨1, _⟩ =>
    show min (startIdx (ix2 k (0 : Fin 1))).toInt.toNat 14 + 0 + 0 = (parent k).val
    rw [start_word k]; rfl
  | ⟨2, _⟩ => show 0 + 0 + d.val = d.val; omega

/-- The host's square root at an index is the extended reals' square root of the entry. -/
theorem hostSqrt_apply {s : Shape} (v : FVec Ideal s .f32) (i : s.Idx) : Host.sqrt v i = Ideal.sqrt (v i) := rfl

/-- The difference array read at (b, k, d). -/
theorem limbDiff_apply (x : FVec Ideal S1000000x15x3 .f32) (b : Fin 1000000) (k : Fin 15) (d : Fin 3) :
    limbDiff (F := Ideal) x (ix3 b k d) = x (ix3 b k d) - x (ix3 b (parent k) d) := by
  unfold limbDiff
  refine (subf_apply _ _ _).trans ?_
  rw [gather_apply]

/-- The reference's term read at (b, k, 0). -/
theorem limbTerm_apply (x : FVec Ideal S1000000x15x3 .f32) (b : Fin 1000000) (k : Fin 15) (z : Fin 1) :
    limbTerm (F := Ideal) x (ix3 b k z) = lenAt x b k := by
  unfold limbTerm lenAt
  refine (hostSqrt_apply _ _).trans (congrArg Ideal.sqrt ?_)
  refine (broadcastInDim_apply _ _ _ (ix3 b k z) (ix2 b k) ?_).trans ?_
  · intro a
    match a with
    | ⟨0, _⟩ => rfl
    | ⟨1, _⟩ => rfl
  refine (hostReduceAdd_apply _ _ _ _ (ix2 b k)).trans ?_
  refine (Ideal.hostReduceAdd_single _ (by decide) _ _ _).trans ?_
  rw [constant_apply, Ideal.ofBits_zero_f32, zero_add]
  have step : ∀ d : Fin 3, mulf (limbDiff (F := Ideal) x) (limbDiff (F := Ideal) x)
      (Shape.Reduces.lift (by decide : S1000000x15x3.Reduces [2] S1000000x15) (ix2 b k) d) = sqDiff x b k d := by
    intro d
    have e : (Shape.Reduces.lift (by decide : S1000000x15x3.Reduces [2] S1000000x15) (ix2 b k) d) = ix3 b k d := by
      funext a
      match a with
      | ⟨0, _⟩ => rfl
      | ⟨1, _⟩ => rfl
      | ⟨2, _⟩ => rfl
    rw [e]
    refine (mulf_apply _ _ _).trans ?_
    unfold sqDiff
    rw [limbDiff_apply]
  exact Finset.sum_congr rfl fun d _ => step d

/-- The reference's term is the limb-length function of its argument. -/
theorem limbTerm_eq (x : FVec Ideal S1000000x15x3 .f32) : limbTerm (F := Ideal) x = limbLen x := by
  funext i
  obtain ⟨b, k, z, rfl⟩ : ∃ (b : Fin 1000000) (k : Fin 15) (z : Fin 1), i = ix3 b k z := ⟨i 0, i 1, i 2, eq_ix3 i⟩
  rw [limbTerm_apply, limbLen_apply]

end Cert.ReferenceIdeal.RefValue

end
-- ==== Proof.KernelSq.lean ====
/-
  One block of the kernel, lane by lane. A block is 8000 rows of 45 lanes: lane `3k + d` of a row holds coordinate
  `d` of keypoint `k`. The body subtracts from the block its re-laid copy — fifteen three-lane pieces, piece `k`
  cut from the lanes of keypoint `parent k` — and squares: at lane `3k + d` of row `p` this is the squared
  difference of coordinate `d` of keypoint `k` and of its connected keypoint (`sq_apply`). Also here: the sum of
  three consecutive lanes kept as a column (`colsum`), and a concatenation along the lane axis read at a lane of its
  `K`-th piece (`piece3`, `piece1`).
-/
import proofs.«150271_j80831284510869_2_alg».proof.Proof.Gen.KernelIdeal.Frame
import proofs.«150271_j80831284510869_2_alg».proof.Proof.Spec
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Limb

/-- Where coordinate `d` of keypoint `k` sits in a row of 45 lanes. -/
def lane (k : Fin 15) (d : Fin 3) : Fin 45 := ⟨3 * k.val + d.val, by omega⟩

/-- The sum over three consecutive lanes starting at lane `off`, kept as a column: at row `p` it is the sum of the
    three entries of that row. -/
theorem colsum (sq : FVec Ideal S8000x45 .f32) (off : ℕ) (hoff : off + 3 ≤ 45) (hs : S8000x45.Slices ![0, off] S8000x3)
    (hr : S8000x3.Reduces [1] S8000) (hc : S8000.ShapeCasts S8000x1) (hφ : FKind.Formats .f32)
    (hacc : (0x00000000#32 : BitVec FTy.f32.bits) = FKind.add.neutral .f32 hφ) (p : Fin 8000) :
    shapeCast S8000x1 (multiReduction .add [1] S8000 (extractStridedSlice S8000x3 ![0, off] sq hs) 0x00000000#32 hr hφ hacc) hc
        (ix2 p (0 : Fin 1))
      = ∑ d : Fin 3, sq (ix2 p (⟨off + d.val, by omega⟩ : Fin 45)) := by
  refine (shapeCast_apply _ hc (ix2 p (0 : Fin 1)) (ix1 p) ?_).trans ?_
  · rw [Shape.rowMajor_val_one, Shape.rowMajor_val_two]
    show p.val = p.val * 1 + 0
    omega
  refine (Ideal.multiReduction_add_single _ _ hr hφ hacc (ix1 p)).trans ?_
  refine Finset.sum_congr rfl fun d _ => ?_
  refine extractStridedSlice_apply _ sq hs _ _ ?_
  intro a
  match a with
  | ⟨0, _⟩ => show p.val = 0 + p.val; omega
  | ⟨1, _⟩ => rfl

/-- Piece `K` of a concatenation of three-lane pieces along the lane axis, read at lane `3K + d`. -/
theorem piece3 (xs : List ((s : Shape) × (s.Idx → EReal))) (h : Shape.Concatenates (xs.map (·.1)) S8000x45 1)
    (p : Fin 8000) (K : ℕ) (d : Fin 3) (hK : 3 * K + d.val < 45) (hk : K < xs.length) (x₁ : S8000x3.Idx → EReal)
    (hxk : xs[K] = ⟨S8000x3, x₁⟩)
    (hpre : (((xs.take K).map (·.1)).map fun s => if h : s.rank = S8000x45.rank then s.size ((1 : Fin S8000x45.rank).cast h.symm) else 0).sum = 3 * K) :
    concatenate S8000x45 1 xs h (ix2 p (⟨3 * K + d.val, hK⟩ : Fin 45)) = x₁ (ix2 p d) :=
  concatenate_apply_piece (t := S8000x45) (1 : Fin 2) xs h (ix2 p (⟨3 * K + d.val, hK⟩ : Fin 45)) K hk S8000x3 x₁ hxk rfl (3 * K) hpre (ix2 p d)
    (fun b hb => by
      match b with
      | ⟨0, _⟩ => rfl
      | ⟨1, _⟩ => exact absurd rfl hb) rfl

/-- Piece `K` of a concatenation of one-lane pieces along the lane axis, read at lane `K`. -/
theorem piece1 (xs : List ((s : Shape) × (s.Idx → EReal))) (h : Shape.Concatenates (xs.map (·.1)) S8000x15 1)
    (p : Fin 8000) (K : ℕ) (hK : K < 15) (hk : K < xs.length) (x₁ : S8000x1.Idx → EReal)
    (hxk : xs[K] = ⟨S8000x1, x₁⟩)
    (hpre : (((xs.take K).map (·.1)).map fun s => if h : s.rank = S8000x15.rank then s.size ((1 : Fin S8000x15.rank).cast h.symm) else 0).sum = K) :
    concatenate S8000x15 1 xs h (ix2 p (⟨K, hK⟩ : Fin 15)) = x₁ (ix2 p (0 : Fin 1)) :=
  concatenate_apply_piece (t := S8000x15) (1 : Fin 2) xs h (ix2 p (⟨K, hK⟩ : Fin 15)) K hk S8000x1 x₁ hxk rfl K hpre (ix2 p (0 : Fin 1))
    (fun b hb => by
      match b with
      | ⟨0, _⟩ => rfl
      | ⟨1, _⟩ => exact absurd rfl hb) rfl

/-- The squared difference at one lane of one row of a block. -/
def rowSq (x0 : FVec Ideal S8000x45 .f32) (p : Fin 8000) (k : Fin 15) (d : Fin 3) : EReal :=
  (x0 (ix2 p (lane k d)) - x0 (ix2 p (lane (parent k) d))) * (x0 (ix2 p (lane k d)) - x0 (ix2 p (lane (parent k) d)))

theorem sq_of (v1 v17 : FVec Ideal S8000x45 .f32) (j : S8000x45.Idx) (a : EReal) (h : v17 j = a) :
    mulf (subf v1 v17) (subf v1 v17) j = (v1 j - a) * (v1 j - a) := by
  subst h; rfl

set_option maxHeartbeats 4000000 in
theorem sq_apply (x0 : FVec Ideal S8000x45 .f32) (p : Fin 8000) (d : Fin 3) :
    ∀ k : Fin 15, k0_pay2 (F := Ideal) x0 (ix2 p (lane k d)) = rowSq x0 p k d := by
  intro k
  unfold k0_pay2 rowSq
  rw [shapeCast_self]
  refine (sq_of _ _ _ (x0 (ix2 p (lane (parent k) d))) ?_).trans rfl
  fin_cases k
  · refine (piece3 _ _ p 0 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl
  · refine (piece3 _ _ p 1 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl
  · refine (piece3 _ _ p 2 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl
  · refine (piece3 _ _ p 3 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl
  · refine (piece3 _ _ p 4 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl
  · refine (piece3 _ _ p 5 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl
  · refine (piece3 _ _ p 6 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl
  · refine (piece3 _ _ p 7 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl
  · refine (piece3 _ _ p 8 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl
  · refine (piece3 _ _ p 9 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl
  · refine (piece3 _ _ p 10 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl
  · refine (piece3 _ _ p 11 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl
  · refine (piece3 _ _ p 12 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl
  · refine (piece3 _ _ p 13 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl
  · refine (piece3 _ _ p 14 d (by have := d.isLt; omega) (by decide : _ < 15) _ rfl rfl).trans ?_
    refine extractStridedSlice_apply _ _ _ _ _ ?_
    intro a
    match a with
    | ⟨0, _⟩ => show p.val = 0 + p.val; omega
    | ⟨1, _⟩ => rfl

end Cert.KernelIdeal.Body

end
-- ==== Proof.KernelBody.lean ====
/-
  What the kernel's body leaves in a block of the result: row `p`, column `k` of the 8000 × 15 block is the
  square root of the sum, over the three lanes of keypoint `k`, of the squared differences of that row of the
  input block. The body stores one value, the square root of the concatenation of fifteen one-lane columns; column
  `k` is the sum of lanes `3k, 3k + 1, 3k + 2` of the squared differences.
-/
import proofs.«150271_j80831284510869_2_alg».proof.Proof.KernelSq

noncomputable section

open scoped BigOperators

namespace Cert.KernelIdeal.Body

open Cert.KernelIdeal Cert.KernelIdeal.Gen Idealize.ShloMosaic Idealize.ShloMosaic.ValueIdx Cert.Limb

theorem offsets_zero : (![0, 0] : Fin 2 → Nat) = fun _ => 0 := funext fun a => by fin_cases a <;> rfl

/-- The vector unit's square root at an index is the extended reals' square root of the entry. -/
theorem sqrt_apply {s : Shape} (v : FVec Ideal s .f32) (i : s.Idx) : sqrt v i = Ideal.sqrt (v i) := rfl

set_option maxHeartbeats 4000000 in
/-- The body's result at row `p`, column `k` of the block. -/
theorem body_at (x0 : FVec Ideal S8000x45 .f32) (p : Fin 8000) :
    ∀ k : Fin 15, out0_1 (F := Ideal) x0 (ix2 p k) = Ideal.sqrt (∑ d : Fin 3, rowSq x0 p k d) := by
  intro k
  unfold out0_1
  rw [View.canon_unit_zero offsets_zero]
  simp only [View.ld_unit_zero (S := S8000x45) offsets_zero]
  unfold k0_pay1 k0_pay3 k0_pay4 k0_pay5 k0_pay6 k0_pay7 k0_pay8 k0_pay9 k0_pay10 k0_pay11 k0_pay12
  refine (sqrt_apply _ _).trans (congrArg Ideal.sqrt ?_)
  fin_cases k
  · refine (piece1 _ _ p 0 (by decide) (by decide : _ < 15) _ rfl rfl).trans ?_
    refine (colsum _ _ (by decide) _ _ _ _ _ p).trans ?_
    exact Finset.sum_congr rfl fun d _ => sq_apply x0 p d ⟨0, by decide⟩
  · refine (piece1 _ _ p 1 (by decide) (by decide : _ < 15) _ rfl rfl).trans ?_
    refine (colsum _ _ (by decide) _ _ _ _ _ p).trans ?_
    exact Finset.sum_congr rfl fun d _ => sq_apply x0 p d ⟨1, by decide⟩
  · refine (piece1 _ _ p 2 (by decide) (by decide : _ < 15) _ rfl rfl).trans ?_
    refine (colsum _ _ (by decide) _ _ _ _ _ p).trans ?_
    exact Finset.sum_congr rfl fun d _ => sq_apply x0 p d ⟨2, by decide⟩
  · refine (piece1 _ _ p 3 (by decide) (by decide : _ < 15) _ rfl rfl).trans ?_
    refine (colsum _ _ (by decide) _ _ _ _ _ p).trans ?_
    exact Finset.sum_congr rfl fun d _ => sq_apply x0 p d ⟨3, by decide⟩
  · refine (piece1 _ _ p 4 (by decide) (by decide : _ < 15) _ rfl rfl).trans ?_
    refine (colsum _ _ (by decide) _ _ _ _ _ p).trans ?_
    exact Finset.sum_congr rfl fun d _ => sq_apply x0 p d ⟨4, by decide⟩
  · refine (piece1 _ _ p 5 (by decide) (by decide : _ < 15) _ rfl rfl).trans ?_
    refine (colsum _ _ (by decide) _ _ _ _ _ p).trans ?_
    exact Finset.sum_congr rfl fun d _ => sq_apply x0 p d ⟨5, by decide⟩
  · refine (piece1 _ _ p 6 (by decide) (by decide : _ < 15) _ rfl rfl).trans ?_
    refine (colsum _ _ (by decide) _ _ _ _ _ p).trans ?_
    exact Finset.sum_congr rfl fun d _ => sq_apply x0 p d ⟨6, by decide⟩
  · refine (piece1 _ _ p 7 (by decide) (by decide : _ < 15) _ rfl rfl).trans ?_
    refine (colsum _ _ (by decide) _ _ _ _ _ p).trans ?_
    exact Finset.sum_congr rfl fun d _ => sq_apply x0 p d ⟨7, by decide⟩
  · refine (piece1 _ _ p 8 (by decide) (by decide : _ < 15) _ rfl rfl).trans ?_
    refine (colsum _ _ (by decide) _ _ _ _ _ p).trans ?_
    exact Finset.sum_congr rfl fun d _ => sq_apply x0 p d ⟨8, by decide⟩
  · refine (piece1 _ _ p 9 (by decide) (by decide : _ < 15) _ rfl rfl).trans ?_
    refine (colsum _ _ (by decide) _ _ _ _ _ p).trans ?_
    exact Finset.sum_congr rfl fun d _ => sq_apply x0 p d ⟨9, by decide⟩
  · refine (piece1 _ _ p 10 (by decide) (by decide : _ < 15) _ rfl rfl).trans ?_
    refine (colsum _ _ (by decide) _ _ _ _ _ p).trans ?_
    exact Finset.sum_congr rfl fun d _ => sq_apply x0 p d ⟨10, by decide⟩
  · refine (piece1 _ _ p 11 (by decide) (by decide : _ < 15) _ rfl rfl).trans ?_
    refine (colsum _ _ (by decide) _ _ _ _ _ p).trans ?_
    exact Finset.sum_congr rfl fun d _ => sq_apply x0 p d ⟨11, by decide⟩
  · refine (piece1 _ _ p 12 (by decide) (by decide : _ < 15) _ rfl rfl).trans ?_
    refine (colsum _ _ (by decide) _ _ _ _ _ p).trans ?_
    exact Finset.sum_congr rfl fun d _ => sq_apply x0 p d ⟨12, by decide⟩
  · refine (piece1 _ _ p 13 (by decide) (by decide : _ < 15) _ rfl rfl).trans ?_
    refine (colsum _ _ (by decide) _ _ _ _ _ p).trans ?_
    exact Finset.sum_congr rfl fun d _ => sq_apply x0 p d ⟨13, by decide⟩
  · refine (piece1 _ _ p 14 (by decide) (by decide : _ < 15) _ rfl rfl).trans ?_
    refine (colsum _ _ (by decide) _ _ _ _ _ p).trans ?_
    exact Finset.sum_congr rfl fun d _ => sq_apply x0 p d ⟨14, by decide⟩

end Cert.KernelIdeal.Body

end
-- ==== Proof.KernelValue.lean ====
/-
  The kernel's program, read as a value. @main lays the argument out as rows of 45 lanes, runs the body on 125
  blocks of 8000 rows, and gives the 1000000 × 15 result rows a trailing unit axis. Block `t` of either window is
  rows `8000 t … 8000 t + 7999`; what point `t` writes back is block `t` of the row-wise limb lengths; the 125
  blocks cover the result rows; so @main's result is the limb-length function of the argument.
-/
import proofs.«150271_j80831284510869_2_alg».proof.Proof.Gen.KernelIdeal.Frame
import proofs.«150271_j80831284510869_2_alg».proof.Proof.Spec
import proofs.«150271_j80831284510869_2_alg».proof.Proof.KernelBody
import Idealize.ShloMosaic.Lib.Pipeline.Value
import Idealize.ShloMosaic.Lib.StableHlo.Run

noncomputable section

open scoped BigOperators

namespace Cert.KernelIdeal.KValue

open Cert.KernelIdeal Cert.KernelIdeal.Gen Idealize.ShloMosaic Idealize.ShloMosaic.TcCoe Idealize.SL.Sem Idealize.ShloMosaic.ValueIdx Cert.Limb
open Idealize.ShloMosaic.Pipeline (Dat)
open Cert.KernelIdeal.Body (lane rowSq body_at)

variable (m : (ℓ : Loc nD τ sig) → Buf (Elt Ideal) ℓ) (ρ : Dev nD → PrngReg)

/-- The argument array laid out as rows of 45 lanes. -/
def rowsOf (x : S1000000x15x3.Idx → EReal) : S1000000x45.Idx → EReal :=
  shapeCast S1000000x45 x shapeCasts_S1000000x15x3_S1000000x45

/-- Lane `3k + d` of row `r` is coordinate `d` of keypoint `k` of batch row `r`. -/
theorem rowsOf_apply (x : S1000000x15x3.Idx → EReal) (r : Fin 1000000) (k : Fin 15) (d : Fin 3) :
    rowsOf x (ix2 r (lane k d)) = x (ix3 r k d) := by
  unfold rowsOf
  refine shapeCast_apply _ _ _ _ ?_
  rw [Shape.rowMajor_val_three, Shape.rowMajor_val_two]
  show (r.val * 15 + k.val) * 3 + d.val = r.val * 45 + (3 * k.val + d.val)
  omega

/-- The result rows [1000000, 15]: entry (r, k) is the length of limb `k` in batch row `r`. -/
def lenRows (x : S1000000x15x3.Idx → EReal) : S1000000x15.Idx → EReal :=
  fun i => lenAt x ⟨(i 0).val, (i 0).isLt⟩ ⟨(i 1).val, (i 1).isLt⟩

/-- The region finds its operand at the argument's rows. -/
theorem V_rows (c : Dev nD) : (V m c main_v0 : S1000000x45.Idx → EReal) = rowsOf (m ((c : Thread nD τ).loc main_arg0)) := by
  show StableHlo.after hostOps0 (fun b => m (c, b)) (Proc.devRef .tc main_v0) = _
  after_results
  rfl

/-- The printed index maps, decided over the grid: both windows' blocks at point `t` are block `t` of the rows. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- One block of the result, from a block of the rows: if the block `x0` holds rows `8000 T …` of the argument's
    rows, then its result at a block index `y` is the row-wise limb length at the array index `i` under `y`. -/
theorem block_eq (x : S1000000x15x3.Idx → EReal) (x0 : FVec Ideal S8000x45 .f32) (T : ℕ)
    (hx0 : ∀ (p : Fin 8000) (q : Fin 45) (hr : T * 8000 + p.val < 1000000),
      x0 (ix2 p q) = rowsOf x (ix2 (⟨T * 8000 + p.val, hr⟩ : Fin 1000000) q))
    (y : S8000x15.Idx) (i : S1000000x15.Idx) (hi0 : (i 0).val = T * 8000 + (y 0).val) (hi1 : (i 1).val = (y 1).val) :
    out0_1 (F := Ideal) x0 y = lenRows x i := by
  obtain ⟨p, k, rfl⟩ : ∃ (p : Fin 8000) (k : Fin 15), y = ix2 p k := ⟨y 0, y 1, eq_ix2 y⟩
  have hi0' : (i 0).val = T * 8000 + p.val := hi0
  have hi1' : (i 1).val = k.val := hi1
  have h0 : (i 0).val < 1000000 := (i 0).isLt
  have hr : T * 8000 + p.val < 1000000 := by omega
  rw [body_at]
  unfold lenRows lenAt
  have eb : (⟨(i 0).val, (i 0).isLt⟩ : Fin 1000000) = ⟨T * 8000 + p.val, hr⟩ := Fin.ext hi0'
  have ek : (⟨(i 1).val, (i 1).isLt⟩ : Fin 15) = k := Fin.ext hi1'
  rw [eb, ek]
  refine congrArg Ideal.sqrt (Finset.sum_congr rfl fun d _ => ?_)
  unfold rowSq sqDiff
  rw [hx0 p _ hr, hx0 p _ hr, rowsOf_apply, rowsOf_apply]

/-- The input window's block at point `t` is rows `8000 t …` of the argument's rows. -/
theorem iblk_apply (c : Dev nD) (t : Fin cfg0.N) (p : Fin 8000) (q : Fin 45) (hr : t.val * 8000 + p.val < 1000000) :
    (iblk m c 0 t : FVec Ideal S8000x45 .f32) (ix2 p q)
      = rowsOf (m ((c : Thread nD τ).loc main_arg0)) (ix2 (⟨t.val * 8000 + p.val, hr⟩ : Fin 1000000) q) := by
  obtain ⟨e0, e1, e2, e3⟩ := idx_facts t
  unfold iblk
  rw [View.read_apply]
  show V m c main_v0 _ = _
  rw [V_rows]
  refine congrArg _ (funext fun a => Fin.ext ?_)
  match a with
  | ⟨0, _⟩ => show win0_0.index t (0 : Fin 2) * 8000 + 1 * p.val = t.val * 8000 + p.val; rw [e0]; omega
  | ⟨1, _⟩ => show win0_0.index t (1 : Fin 2) * 45 + 1 * q.val = q.val; rw [e1]; omega

/-- What point `t` writes back is block `t` of the row-wise limb lengths of the argument. -/
theorem flushed_eq (c : Dev nD) (t : Fin cfg0.N) :
    (dats m 0 c).flushed 1 t = ((cfg0.win 1).blk t).view.read (Elt Ideal) (lenRows (m ((c : Thread nD τ).loc main_arg0))) := by
  show (cfg0.win 1).cut (grid0.coords t) ((dats m 0 c).after 1 t) = _
  rw [after0_1]
  obtain ⟨e0, e1, e2, e3⟩ := idx_facts t
  funext j
  show out0_1 (iblk m c 0 t) j = lenRows (m ((c : Thread nD τ).loc main_arg0)) (((cfg0.win 1).blk t).view.emb j)
  refine block_eq (m ((c : Thread nD τ).loc main_arg0)) (iblk m c 0 t) t.val (fun p q hr => iblk_apply m c t p q hr) j _ ?_ ?_
  · show win0_1.index t (0 : Fin 2) * 8000 + 1 * (j 0).val = t.val * 8000 + (j 0).val
    rw [e2]; omega
  · show win0_1.index t (1 : Fin 2) * 15 + 1 * (j 1).val = (j 1).val
    rw [e3]; omega

/-- An index of the result rows is in point `t`'s block iff each coordinate is in the block's range on its axis. -/
theorem mem_blk (t : Fin cfg0.N) (i : S1000000x15.Idx) :
    i ∈ ((cfg0.win 1).blk t).view.set ↔ ∀ a : Fin 2, win0_1.index t a * S8000x15.size a ≤ (i a).val ∧ (i a).val < win0_1.index t a * S8000x15.size a + S8000x15.size a := by
  show i ∈ ((View.whole main_v1).slice (win0_1.rect t)).set ↔ _
  rw [View.set_slice_whole, Rect.mem_set_unit]
  exact Iff.rfl

/-- Every row of the result is in the block of the point that holds it: row `r` in block `r / 8000`. -/
theorem cover (i : S1000000x15.Idx) : ∃ t : Fin cfg0.N, (cfg0.win 1).flush t = true ∧ i ∈ ((cfg0.win 1).blk t).view.set := by
  have hN : cfg0.N = 125 := N_0
  have hi0 : (i 0).val < 1000000 := (i 0).isLt
  have hi1 : (i 1).val < 15 := (i 1).isLt
  let t : Fin cfg0.N := ⟨(i 0).val / 8000, by rw [hN]; omega⟩
  obtain ⟨e0, e1, e2, e3⟩ := idx_facts t
  have ht : t.val = (i 0).val / 8000 := rfl
  refine ⟨t, flush0_1 t, ?_⟩
  rw [mem_blk]
  intro a
  match a with
  | ⟨0, _⟩ => show win0_1.index t (0 : Fin 2) * 8000 ≤ (i 0).val ∧ (i 0).val < win0_1.index t (0 : Fin 2) * 8000 + 8000; omega
  | ⟨1, _⟩ => show win0_1.index t (1 : Fin 2) * 15 ≤ (i 1).val ∧ (i 1).val < win0_1.index t (1 : Fin 2) * 15 + 15; omega

/-- The result rows after the region are the row-wise limb lengths of the argument. -/
theorem final_rows (c : Dev nD) : (dats m 0 c).arrAt 1 cfg0.N = lenRows (m ((c : Thread nD τ).loc main_arg0)) :=
  (dats m 0 c).arrAt_eq_of_cover 1 _ (fun t _ => flushed_eq m c t) cover

/-- The result rows after the region, given a trailing unit axis, are what @main returns. -/
theorem tail_eq (c : Dev nD) :
    Pipeline.afterTail₀ cfgs (dats m) 0 (V0 m) [hostOps1] c main_v2
      = shapeCast S1000000x15x1 ((dats m 0 c).arrAt 1 cfg0.N) shapeCasts_S1000000x15_S1000000x15x1 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1)
      = (dats m 0 c).arrAt 1 cfg0.N :=
    Pipeline.withArrays_arr spec0 launch0.win.arr_inj c (V0 m c) (fun w => (dats m 0 c).arrAt w cfg0.N) 1
  rw [e]
  rfl

/-- The row-wise limb lengths with a trailing unit axis are the limb-length function. -/
theorem lenRows_cast (x : S1000000x15x3.Idx → EReal) :
    shapeCast S1000000x15x1 (lenRows x) shapeCasts_S1000000x15_S1000000x15x1 = limbLen x := by
  funext i
  obtain ⟨b, k, z, rfl⟩ : ∃ (b : Fin 1000000) (k : Fin 15) (z : Fin 1), i = ix3 b k z := ⟨i 0, i 1, i 2, eq_ix3 i⟩
  refine (shapeCast_apply _ _ _ (ix2 b k) ?_).trans rfl
  rw [Shape.rowMajor_val_two, Shape.rowMajor_val_three]
  show b.val * 15 + k.val = (b.val * 15 + k.val) * 1 + z.val
  have := z.isLt
  omega

/-- The kernel's run, read: every weakly fair execution terminates with @main's result at the limb-length function
    of the argument, the argument unchanged. -/
theorem run : θ_run defs (onTc (τ := τ) (main (F := Ideal))) ⟨m, fun _ => 0, ρ⟩ fun r => ∀ c : Dev nD,
      r.2.mem ((c : Thread nD τ).loc main_v2) = limbLen (m ((c : Thread nD τ).loc main_arg0))
      ∧ r.2.mem ((c : Thread nD τ).loc main_arg0) = m ((c : Thread nD τ).loc main_arg0) :=
  (θ_run defs _ _).mono (fun r h c => ⟨
      (((h c).2 main_v2 (Pipeline.mem_restRefs_of main_v2 (by decide) (by decide))).trans (tail_eq m c)).trans
        (by rw [final_rows, lenRows_cast]),
      ((h c).2 main_arg0 (Pipeline.mem_restRefs_of main_arg0 (by decide) (by decide))).trans (W_main_arg0 m (dats m) c)⟩)
    (run_main m ρ)

end Cert.KernelIdeal.KValue

end
-- ==== Proof.lean ====
/-
  Limb lengths of a 15-keypoint skeleton: the kernel against its jnp reference, over the extended reals.

  For every batch row `b` and keypoint `k` both programs return the Euclidean distance between keypoint `k` and
  its connected keypoint `parent k`: the square root of the sum over the three coordinates `d` of
  `(x[b, k, d] − x[b, parent k, d])²` (Proof/Spec.lean, `Cert.Limb.limbLen`).

  The reference gathers the connected keypoints along the keypoint axis with a constant index vector, subtracts,
  squares, sums the last axis and takes the square root (Proof/RefRun.lean: its run; Proof/RefValue.lean: its term
  read at an index is `limbLen`). The kernel views the argument as rows of 45 lanes, and per block of 8000 rows
  subtracts a re-laid copy of the block (fifteen three-lane slices, slice `k` taken at keypoint `parent k`),
  squares, sums each keypoint's three lanes, and takes the square root (Proof/KernelSq.lean, Proof/KernelBody.lean:
  one block; Proof/KernelValue.lean: the blocks tile the result, so the whole result is `limbLen`).

  The two sides are the same sum of the same three terms: no law beyond reading both sums over the same index set
  and `0 + s = s` for the reference's initial value is needed, so finiteness of the input is never used.
  Nothing was rewritten by the idealization, so `preserves` is trivial.
-/
import proofs.«150271_j80831284510869_2_alg».proof.Defs
import proofs.«150271_j80831284510869_2_alg».proof.Proof.Gen.Kernel
import proofs.«150271_j80831284510869_2_alg».proof.Proof.Gen.Kernel.Skeleton
import proofs.«150271_j80831284510869_2_alg».proof.Proof.Gen.Kernel.Launch
import proofs.«150271_j80831284510869_2_alg».proof.Proof.Gen.Kernel.Points
import proofs.«150271_j80831284510869_2_alg».proof.Proof.Gen.Kernel.Frame
import proofs.«150271_j80831284510869_2_alg».proof.Proof.Gen.KernelIdeal
import proofs.«150271_j80831284510869_2_alg».proof.Proof.Gen.KernelIdeal.Skeleton
import proofs.«150271_j80831284510869_2_alg».proof.Proof.Gen.KernelIdeal.Launch
import proofs.«150271_j80831284510869_2_alg».proof.Proof.Gen.KernelIdeal.Points
import proofs.«150271_j80831284510869_2_alg».proof.Proof.Gen.KernelIdeal.Frame
import proofs.«150271_j80831284510869_2_alg».proof.Proof.Gen.ReferenceIdeal
import proofs.«150271_j80831284510869_2_alg».proof.Proof.Gen.Pre_finite_inputs
import proofs.«150271_j80831284510869_2_alg».proof.Proof.RefRun
import proofs.«150271_j80831284510869_2_alg».proof.Proof.RefValue
import proofs.«150271_j80831284510869_2_alg».proof.Proof.KernelValue
import Idealize.ShloMosaic.Adequacy
import Idealize.ShloMosaic.Init

noncomputable section

namespace Cert.Proof

open Idealize.ShloMosaic Idealize.SL.Sem

/-- The word-level kernel runs and leaves its argument unchanged. -/
theorem frame_kernel : Cert.frame_Kernel := fun m ρ _ => Cert.Kernel.Gen.frame m ρ

/-- The idealized kernel runs and leaves its argument unchanged. -/
theorem frame_kernelIdeal : Cert.frame_KernelIdeal := fun m ρ _ => Cert.KernelIdeal.Gen.frame m ρ

/-- The reference runs and leaves its argument unchanged: its run with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the argument, both programs end with the limb-length function of the argument. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.limbTerm_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
